-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x5 : Shape := ⟨2, ![1048576, 5]⟩
abbrev S24x5 : Shape := ⟨2, ![24, 5]⟩
abbrev S24x1 : Shape := ⟨2, ![24, 1]⟩
abbrev S24x24 : Shape := ⟨2, ![24, 24]⟩
abbrev S5x24 : Shape := ⟨2, ![5, 24]⟩
abbrev S5x1 : Shape := ⟨2, ![5, 1]⟩
abbrev S_ : Shape := ⟨0, ![]⟩

class Facts : Prop where
  bcast_S_S1048576x5 : S_.BroadcastsInDim S1048576x5 (![] : Fin 0 → Fin S1048576x5.rank)
  reducesTo_S1048576x5_S_d0_1 : S1048576x5.ReducesTo [0, 1] S_
  h_S_ : 0 < S_.numel
  bcast_S_S24x5 : S_.BroadcastsInDim S24x5 (![] : Fin 0 → Fin S24x5.rank)
  reducesTo_S24x5_S_d0_1 : S24x5.ReducesTo [0, 1] S_
  bcast_S_S24x1 : S_.BroadcastsInDim S24x1 (![] : Fin 0 → Fin S24x1.rank)
  reducesTo_S24x1_S_d0_1 : S24x1.ReducesTo [0, 1] S_
  bcast_S_S24x24 : S_.BroadcastsInDim S24x24 (![] : Fin 0 → Fin S24x24.rank)
  reducesTo_S24x24_S_d0_1 : S24x24.ReducesTo [0, 1] S_
  bcast_S_S5x24 : S_.BroadcastsInDim S5x24 (![] : Fin 0 → Fin S5x24.rank)
  reducesTo_S5x24_S_d0_1 : S5x24.ReducesTo [0, 1] S_
  bcast_S_S5x1 : S_.BroadcastsInDim S5x1 (![] : Fin 0 → Fin S5x1.rank)
  reducesTo_S5x1_S_d0_1 : S5x1.ReducesTo [0, 1] S_

variable [Facts]

def fn_part1 {F : FTy → Type} [FloatOps F] (main_arg4 : FVec F S24x1 .f32) (main_arg5 : FVec F S5x24 .f32) (main_arg6 : FVec F S5x1 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S24x1 .f32 := Host.absf main_arg4
  let main_cst_6 : FVec F S_ .f32 := constant S_ .f32 0x7F800000#32
  let main_v20 : FVec F S24x1 .f32 := broadcastInDim S24x1 ![] bcast_S_S24x1 main_cst_6
  let main_v21 : IVec S24x1 1 := cmpf .olt main_v19 main_v20
  let main_c_7 : IVec S_ 1 := constantI S_ 1 1#1
  let main_v22 : IVec S_ 1 := (fun x v => Host.reduce IntOp.andi x v reducesTo_S24x1_S_d0_1 h_S_) main_v21 main_c_7
  let main_v23 : IVec S_ 1 := andi main_v18 main_v22
  let main_v24 : FVec F S5x24 .f32 := Host.absf main_arg5
  let main_cst_8 : FVec F S_ .f32 := constant S_ .f32 0x7F800000#32
  let main_v25 : FVec F S5x24 .f32 := broadcastInDim S5x24 ![] bcast_S_S5x24 main_cst_8
  let main_v26 : IVec S5x24 1 := cmpf .olt main_v24 main_v25
  let main_c_9 : IVec S_ 1 := constantI S_ 1 1#1
  let main_v27 : IVec S_ 1 := (fun x v => Host.reduce IntOp.andi x v reducesTo_S5x24_S_d0_1 h_S_) main_v26 main_c_9
  let main_v28 : IVec S_ 1 := andi main_v23 main_v27
  let main_v29 : FVec F S5x1 .f32 := Host.absf main_arg6
  let main_cst_10 : FVec F S_ .f32 := constant S_ .f32 0x7F800000#32
  let main_v30 : FVec F S5x1 .f32 := broadcastInDim S5x1 ![] bcast_S_S5x1 main_cst_10
  let main_v31 : IVec S5x1 1 := cmpf .olt main_v29 main_v30
  let main_c_11 : IVec S_ 1 := constantI S_ 1 1#1
  let main_v32 : IVec S_ 1 := (fun x v => Host.reduce IntOp.andi x v reducesTo_S5x1_S_d0_1 h_S_) main_v31 main_c_11
  let main_v33 : IVec S_ 1 := andi main_v28 main_v32
  main_v33

def fn {F : FTy → Type} [FloatOps F] (main_arg0 : FVec F S1048576x5 .f32) (main_arg1 : FVec F S24x5 .f32) (main_arg2 : FVec F S24x1 .f32) (main_arg3 : FVec F S24x24 .f32) (main_arg4 : FVec F S24x1 .f32) (main_arg5 : FVec F S5x24 .f32) (main_arg6 : FVec F S5x1 .f32) : IVec S_ 1 :=
  let main_v0 : FVec F S1048576x5 .f32 := Host.absf main_arg0
  let main_cst : FVec F S_ .f32 := constant S_ .f32 0x7F800000#32
  let main_v1 : FVec F S1048576x5 .f32 := broadcastInDim S1048576x5 ![] bcast_S_S1048576x5 main_cst
  let main_v2 : IVec S1048576x5 1 := cmpf .olt main_v0 main_v1
  let main_c : IVec S_ 1 := constantI S_ 1 1#1
  let main_v3 : IVec S_ 1 := (fun x v => Host.reduce IntOp.andi x v reducesTo_S1048576x5_S_d0_1 h_S_) main_v2 main_c
  let main_v4 : FVec F S24x5 .f32 := Host.absf main_arg1
  let main_cst_0 : FVec F S_ .f32 := constant S_ .f32 0x7F800000#32
  let main_v5 : FVec F S24x5 .f32 := broadcastInDim S24x5 ![] bcast_S_S24x5 main_cst_0
  let main_v6 : IVec S24x5 1 := cmpf .olt main_v4 main_v5
  let main_c_1 : IVec S_ 1 := constantI S_ 1 1#1
  let main_v7 : IVec S_ 1 := (fun x v => Host.reduce IntOp.andi x v reducesTo_S24x5_S_d0_1 h_S_) main_v6 main_c_1
  let main_v8 : IVec S_ 1 := andi main_v3 main_v7
  let main_v9 : FVec F S24x1 .f32 := Host.absf main_arg2
  let main_cst_2 : FVec F S_ .f32 := constant S_ .f32 0x7F800000#32
  let main_v10 : FVec F S24x1 .f32 := broadcastInDim S24x1 ![] bcast_S_S24x1 main_cst_2
  let main_v11 : IVec S24x1 1 := cmpf .olt main_v9 main_v10
  let main_c_3 : IVec S_ 1 := constantI S_ 1 1#1
  let main_v12 : IVec S_ 1 := (fun x v => Host.reduce IntOp.andi x v reducesTo_S24x1_S_d0_1 h_S_) main_v11 main_c_3
  let main_v13 : IVec S_ 1 := andi main_v8 main_v12
  let main_v14 : FVec F S24x24 .f32 := Host.absf main_arg3
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg4 main_arg5 main_arg6 main_v13 main_v16
-- ==== Kernel.lean ====
abbrev S1048576x5 : Shape := ⟨2, ![1048576, 5]⟩
abbrev S24x5 : Shape := ⟨2, ![24, 5]⟩
abbrev S24x1 : Shape := ⟨2, ![24, 1]⟩
abbrev S24x24 : Shape := ⟨2, ![24, 24]⟩
abbrev S5x24 : Shape := ⟨2, ![5, 24]⟩
abbrev S5x1 : Shape := ⟨2, ![5, 1]⟩
abbrev S5x1048576 : Shape := ⟨2, ![5, 1048576]⟩
abbrev S24x6 : Shape := ⟨2, ![24, 6]⟩
abbrev S5x131072 : Shape := ⟨2, ![5, 131072]⟩
abbrev S1x131072 : Shape := ⟨2, ![1, 131072]⟩
abbrev S6x131072 : Shape := ⟨2, ![6, 131072]⟩
abbrev S24x131072 : Shape := ⟨2, ![24, 131072]⟩

abbrev nBuf : Space → Nat
  | .hbm => 11
  | .vmem => 9
  | .smem => 0
  | _ => 0

abbrev bufTy : (tb : Table) → Fin (tcTables nBuf tb) → BufTy
  | .hbm, ⟨0, _⟩ => ⟨S1048576x5, .f32⟩
  | .hbm, ⟨1, _⟩ => ⟨S24x5, .f32⟩
  | .hbm, ⟨2, _⟩ => ⟨S24x1, .f32⟩
  | .hbm, ⟨3, _⟩ => ⟨S24x24, .f32⟩
  | .hbm, ⟨4, _⟩ => ⟨S24x1, .f32⟩
  | .hbm, ⟨5, _⟩ => ⟨S5x24, .f32⟩
  | .hbm, ⟨6, _⟩ => ⟨S5x1, .f32⟩
  | .hbm, ⟨7, _⟩ => ⟨S5x1048576, .f32⟩
  | .hbm, ⟨8, _⟩ => ⟨S24x6, .f32⟩
  | .hbm, ⟨9, _⟩ => ⟨S5x1048576, .f32⟩
  | .hbm, ⟨10, _⟩ => ⟨S1048576x5, .f32⟩
  | .local _ .vmem, ⟨0, _⟩ => ⟨S5x131072, .f32⟩
  | .local _ .vmem, ⟨1, _⟩ => ⟨S5x131072, .f32⟩
  | .local _ .vmem, ⟨2, _⟩ => ⟨S24x6, .f32⟩
  | .local _ .vmem, ⟨3, _⟩ => ⟨S24x24, .f32⟩
  | .local _ .vmem, ⟨4, _⟩ => ⟨S24x1, .f32⟩
  | .local _ .vmem, ⟨5, _⟩ => ⟨S5x24, .f32⟩
  | .local _ .vmem, ⟨6, _⟩ => ⟨S5x1, .f32⟩
  | .local _ .vmem, ⟨7, _⟩ => ⟨S5x131072, .f32⟩
  | .local _ .vmem, ⟨8, _⟩ => ⟨S5x131072, .f32⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1048576x5_S5x1048576_1_0 : S1048576x5.Transposes [1, 0] S5x1048576
  concatenates_S24x5_S24x1_S24x6_d1 : Shape.Concatenates [S24x5, S24x1] S24x6 1
  inb_S5x131072_S5x131072_0_0 : ∀ a, (![0, 0] : Fin 2 → Nat) a + S5x131072.size a ≤ S5x131072.size a
  h_S5x131072 : 0 < S5x131072.numel
  shapeCasts_S5x131072_S5x131072 : S5x131072.ShapeCasts S5x131072
  concatenates_S5x131072_S1x131072_S6x131072_d0 : Shape.Concatenates [S5x131072, S1x131072] S6x131072 0
  inb_S24x6_S24x6_0_0 : ∀ a, (![0, 0] : Fin 2 → Nat) a + S24x6.size a ≤ S24x6.size a
  h_S24x6 : 0 < S24x6.numel
  shapeCasts_S24x6_S24x6 : S24x6.ShapeCasts S24x6
  inb_S24x24_S24x24_0_0 : ∀ a, (![0, 0] : Fin 2 → Nat) a + S24x24.size a ≤ S24x24.size a
  h_S24x24 : 0 < S24x24.numel
  inb_S24x1_S24x1_0_0 : ∀ a, (![0, 0] : Fin 2 → Nat) a + S24x1.size a ≤ S24x1.size a
  h_S24x1 : 0 < S24x1.numel
  broadcasts_S24x1_S24x131072 : S24x1.Broadcasts S24x131072
  inb_S5x24_S5x24_0_0 : ∀ a, (![0, 0] : Fin 2 → Nat) a + S5x24.size a ≤ S5x24.size a
  h_S5x24 : 0 < S5x24.numel
  inb_S5x1_S5x1_0_0 : ∀ a, (![0, 0] : Fin 2 → Nat) a + S5x1.size a ≤ S5x1.size a
  h_S5x1 : 0 < S5x1.numel
  broadcasts_S5x1_S5x131072 : S5x1.Broadcasts S5x131072
  transposes_S5x1048576_S1048576x5_1_0 : S5x1048576.Transposes [1, 0] S1048576x5
  dot_S24x6_S6x131072_S24x131072_1_0_0_1_n_n_wf : DotDims.WF S24x6 S6x131072 S24x131072 [1] [0] [0] [1] [] []
  dot_S24x24_S24x131072_S24x131072_1_0_0_1_n_n_wf : DotDims.WF S24x24 S24x131072 S24x131072 [1] [0] [0] [1] [] []
  dot_S5x24_S24x131072_S5x131072_1_0_0_1_n_n_wf : DotDims.WF S5x24 S24x131072 S5x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x131072.size a ≤ S5x1048576.size a
  hwx0_0 : ∀ i : grid0.Coords, EltTy.bits .f32 = 32 ∨ (Rect.block (s := S5x1048576) S5x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x6.size a ≤ S24x6.size a
  hwx0_1 : ∀ i : grid0.Coords, EltTy.bits .f32 = 32 ∨ (Rect.block (s := S24x6) S24x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x24.size a ≤ S24x24.size a
  hwx0_2 : ∀ i : grid0.Coords, EltTy.bits .f32 = 32 ∨ (Rect.block (s := S24x24) S24x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x1.size a ≤ S24x1.size a
  hwx0_3 : ∀ i : grid0.Coords, EltTy.bits .f32 = 32 ∨ (Rect.block (s := S24x1) S24x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x24.size a ≤ S5x24.size a
  hwx0_4 : ∀ i : grid0.Coords, EltTy.bits .f32 = 32 ∨ (Rect.block (s := S5x24) S5x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1.size a ≤ S5x1.size a
  hwx0_5 : ∀ i : grid0.Coords, EltTy.bits .f32 = 32 ∨ (Rect.block (s := S5x1) S5x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5x131072.size a ≤ S5x1048576.size a
  hwx0_6 : ∀ i : grid0.Coords, EltTy.bits .f32 = 32 ∨ (Rect.block (s := S5x1048576) S5x131072.size (cc0_transform_6 i) (hinb0_6 i)).WholeWords (EltTy.packing .f32)

variable [Facts₀]

def dot_S24x6_S6x131072_S24x131072_1_0_0_1_n_n : DotDims S24x6 S6x131072 S24x131072 where
  lhsContracting := [1]
  rhsContracting := [0]
  lhsNonContracting := [0]
  rhsNonContracting := [1]
  lhsBatch := []
  rhsBatch := []
  wf := dot_S24x6_S6x131072_S24x131072_1_0_0_1_n_n_wf
def dot_S24x24_S24x131072_S24x131072_1_0_0_1_n_n : DotDims S24x24 S24x131072 S24x131072 where
  lhsContracting := [1]
  rhsContracting := [0]
  lhsNonContracting := [0]
  rhsNonContracting := [1]
  lhsBatch := []
  rhsBatch := []
  wf := dot_S24x24_S24x131072_S24x131072_1_0_0_1_n_n_wf
def dot_S5x24_S24x131072_S5x131072_1_0_0_1_n_n : DotDims S5x24 S24x131072 S5x131072 where
  lhsContracting := [1]
  rhsContracting := [0]
  lhsNonContracting := [0]
  rhsNonContracting := [1]
  lhsBatch := []
  rhsBatch := []
  wf := dot_S5x24_S24x131072_S5x131072_1_0_0_1_n_n_wf

abbrev win0_0 : Pipeline.Window sig grid0 :=
  Pipeline.Window.ofSpec (Memref.whole main_v0) S5x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S24x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S24x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S5x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S5x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S5x131072.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x5 : Shape := ⟨2, ![1048576, 5]⟩
abbrev S24x5 : Shape := ⟨2, ![24, 5]⟩
abbrev S24x1 : Shape := ⟨2, ![24, 1]⟩
abbrev S24x24 : Shape := ⟨2, ![24, 24]⟩
abbrev S5x24 : Shape := ⟨2, ![5, 24]⟩
abbrev S5x1 : Shape := ⟨2, ![5, 1]⟩
abbrev S5x1048576 : Shape := ⟨2, ![5, 1048576]⟩
abbrev S_ : Shape := ⟨0, ![]⟩
abbrev S5x8192 : Shape := ⟨2, ![5, 8192]⟩
abbrev S24x8192 : Shape := ⟨2, ![24, 8192]⟩

abbrev nBuf : Space → Nat
  | .hbm => 13
  | .vmem => 10
  | .smem => 0
  | _ => 0

abbrev bufTy : (tb : Table) → Fin (tcTables nBuf tb) → BufTy
  | .hbm, ⟨0, _⟩ => ⟨S1048576x5, .f32⟩
  | .hbm, ⟨1, _⟩ => ⟨S24x5, .f32⟩
  | .hbm, ⟨2, _⟩ => ⟨S24x1, .f32⟩
  | .hbm, ⟨3, _⟩ => ⟨S24x24, .f32⟩
  | .hbm, ⟨4, _⟩ => ⟨S24x1, .f32⟩
  | .hbm, ⟨5, _⟩ => ⟨S5x24, .f32⟩
  | .hbm, ⟨6, _⟩ => ⟨S5x1, .f32⟩
  | .hbm, ⟨7, _⟩ => ⟨S5x1048576, .f32⟩
  | .hbm, ⟨8, _⟩ => ⟨S_, .i32⟩
  | .hbm, ⟨9, _⟩ => ⟨S_, .f32⟩
  | .hbm, ⟨10, _⟩ => ⟨S5x1048576, .f32⟩
  | .hbm, ⟨11, _⟩ => ⟨S5x1048576, .f32⟩
  | .hbm, ⟨12, _⟩ => ⟨S1048576x5, .f32⟩
  | .local _ .vmem, ⟨0, _⟩ => ⟨S5x8192, .f32⟩
  | .local _ .vmem, ⟨1, _⟩ => ⟨S5x8192, .f32⟩
  | .local _ .vmem, ⟨2, _⟩ => ⟨S24x5, .f32⟩
  | .local _ .vmem, ⟨3, _⟩ => ⟨S24x1, .f32⟩
  | .local _ .vmem, ⟨4, _⟩ => ⟨S24x24, .f32⟩
  | .local _ .vmem, ⟨5, _⟩ => ⟨S24x1, .f32⟩
  | .local _ .vmem, ⟨6, _⟩ => ⟨S5x24, .f32⟩
  | .local _ .vmem, ⟨7, _⟩ => ⟨S5x1, .f32⟩
  | .local _ .vmem, ⟨8, _⟩ => ⟨S5x8192, .f32⟩
  | .local _ .vmem, ⟨9, _⟩ => ⟨S5x8192, .f32⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1048576x5_S5x1048576_1_0 : S1048576x5.Transposes [1, 0] S5x1048576
  pads_S5x1048576_S5x1048576_000_000 : S5x1048576.Pads (![0, 0] : Fin 2 → Nat) ![0, 0] ![0, 0] S5x1048576
  h_S_ : 0 < S_.numel
  inb_S5x8192_S5x8192_0_0 : ∀ a, (![0, 0] : Fin 2 → Nat) a + S5x8192.size a ≤ S5x8192.size a
  h_S5x8192 : 0 < S5x8192.numel
  shapeCasts_S5x8192_S5x8192 : S5x8192.ShapeCasts S5x8192
  inb_S24x5_S24x5_0_0 : ∀ a, (![0, 0] : Fin 2 → Nat) a + S24x5.size a ≤ S24x5.size a
  h_S24x5 : 0 < S24x5.numel
  inb_S24x1_S24x1_0_0 : ∀ a, (![0, 0] : Fin 2 → Nat) a + S24x1.size a ≤ S24x1.size a
  h_S24x1 : 0 < S24x1.numel
  broadcasts_S24x1_S24x8192 : S24x1.Broadcasts S24x8192
  inb_S24x24_S24x24_0_0 : ∀ a, (![0, 0] : Fin 2 → Nat) a + S24x24.size a ≤ S24x24.size a
  h_S24x24 : 0 < S24x24.numel
  inb_S5x24_S5x24_0_0 : ∀ a, (![0, 0] : Fin 2 → Nat) a + S5x24.size a ≤ S5x24.size a
  h_S5x24 : 0 < S5x24.numel
  inb_S5x1_S5x1_0_0 : ∀ a, (![0, 0] : Fin 2 → Nat) a + S5x1.size a ≤ S5x1.size a
  h_S5x1 : 0 < S5x1.numel
  broadcasts_S5x1_S5x8192 : S5x1.Broadcasts S5x8192
  transposes_S5x1048576_S1048576x5_1_0 : S5x1048576.Transposes [1, 0] S1048576x5
  dot_S24x5_S5x8192_S24x8192_1_0_0_1_n_n_wf : DotDims.WF S24x5 S5x8192 S24x8192 [1] [0] [0] [1] [] []
  dot_S24x24_S24x8192_S24x8192_1_0_0_1_n_n_wf : DotDims.WF S24x24 S24x8192 S24x8192 [1] [0] [0] [1] [] []
  dot_S5x24_S24x8192_S5x8192_1_0_0_1_n_n_wf : DotDims.WF S5x24 S24x8192 S5x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x8192.size a ≤ S5x1048576.size a
  hwx0_0 : ∀ i : grid0.Coords, EltTy.bits .f32 = 32 ∨ (Rect.block (s := S5x1048576) S5x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x5.size a ≤ S24x5.size a
  hwx0_1 : ∀ i : grid0.Coords, EltTy.bits .f32 = 32 ∨ (Rect.block (s := S24x5) S24x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x1.size a ≤ S24x1.size a
  hwx0_2 : ∀ i : grid0.Coords, EltTy.bits .f32 = 32 ∨ (Rect.block (s := S24x1) S24x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x24.size a ≤ S24x24.size a
  hwx0_3 : ∀ i : grid0.Coords, EltTy.bits .f32 = 32 ∨ (Rect.block (s := S24x24) S24x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x1.size a ≤ S24x1.size a
  hwx0_4 : ∀ i : grid0.Coords, EltTy.bits .f32 = 32 ∨ (Rect.block (s := S24x1) S24x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x24.size a ≤ S5x24.size a
  hwx0_5 : ∀ i : grid0.Coords, EltTy.bits .f32 = 32 ∨ (Rect.block (s := S5x24) S5x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1.size a ≤ S5x1.size a
  hwx0_6 : ∀ i : grid0.Coords, EltTy.bits .f32 = 32 ∨ (Rect.block (s := S5x1) S5x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5x8192.size a ≤ S5x1048576.size a
  hwx0_7 : ∀ i : grid0.Coords, EltTy.bits .f32 = 32 ∨ (Rect.block (s := S5x1048576) S5x8192.size (cc0_transform_7 i) (hinb0_7 i)).WholeWords (EltTy.packing .f32)

variable [Facts₀]

def dot_S24x5_S5x8192_S24x8192_1_0_0_1_n_n : DotDims S24x5 S5x8192 S24x8192 where
  lhsContracting := [1]
  rhsContracting := [0]
  lhsNonContracting := [0]
  rhsNonContracting := [1]
  lhsBatch := []
  rhsBatch := []
  wf := dot_S24x5_S5x8192_S24x8192_1_0_0_1_n_n_wf
def dot_S24x24_S24x8192_S24x8192_1_0_0_1_n_n : DotDims S24x24 S24x8192 S24x8192 where
  lhsContracting := [1]
  rhsContracting := [0]
  lhsNonContracting := [0]
  rhsNonContracting := [1]
  lhsBatch := []
  rhsBatch := []
  wf := dot_S24x24_S24x8192_S24x8192_1_0_0_1_n_n_wf
def dot_S5x24_S24x8192_S5x8192_1_0_0_1_n_n : DotDims S5x24 S24x8192 S5x8192 where
  lhsContracting := [1]
  rhsContracting := [0]
  lhsNonContracting := [0]
  rhsNonContracting := [1]
  lhsBatch := []
  rhsBatch := []
  wf := dot_S5x24_S24x8192_S5x8192_1_0_0_1_n_n_wf

abbrev win0_0 : Pipeline.Window sig grid0 :=
  Pipeline.Window.ofSpec (Memref.whole main_v1) S5x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S5x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Mlp.lean ====
/-
  A three-layer perceptron with rectified units, read one batch column at a time, over the extended reals.

  A column of the batch is five numbers `col k`. The first hidden layer has 24 units,
  `h₁ i = max (∑ k < 5, w₁ (i, k) · col k + b₁ i) θ`; the second, `h₂ j = max (∑ i < 24, w₂ (j, i) · h₁ i + b₂ j) θ`;
  the output has five, `o a = max (∑ j < 24, w₃ (a, j) · h₂ j + b₃ a) θ`. The threshold `θ` is kept as the value of the
  all-zero word; nothing below needs to know which number it is.

  The first layer has a second spelling: append the bias column to the weights (a 24 × 6 matrix) and a constant one to
  the column (six numbers), and take the plain product, `max (∑ k < 6, w₁ₐ (i, k) · colₐ k) θ`. The sum over six terms
  is the sum over the first five plus the last; the first five are `w₁ (i, k) · col k`, the last is `b₁ i · 1 = b₁ i`.
  Only that a sum splits off its last term and that one is neutral for the product are used: both hold for every
  extended real, so no entry has to be finite.

  Every unit of a column reads that column only. So the network applied to a whole batch, in either layout (batch along
  the rows or along the lanes), is the column function at each position, whatever the batch is cut into.
-/
import Idealize.ShloMosaic.Lib.ValueIdx
import Idealize.ShloMosaic.PureOps.Ideal.Laws

open scoped BigOperators

noncomputable section

namespace Cert.Mlp

open Idealize.ShloMosaic Idealize.ShloMosaic.ValueIdx

/-- An `a × b` matrix of extended reals, indexed as the programs index their arrays. -/
abbrev Mat (a b : Nat) : Type := (⟨2, ![a, b]⟩ : Shape).Idx → EReal

/-- The rectifier's threshold: the value of the all-zero word. -/
abbrev thr : EReal := Ideal.ofBits .f32 0x00000000#32

/-- The first hidden layer of one column: weights times the column, plus the bias, rectified. -/
def hid1 (col : Fin 5 → EReal) (w1 : Mat 24 5) (b1 : Mat 24 1) (i : Fin 24) : EReal :=
  max (∑ k : Fin 5, w1 (ix2 i k) * col k + b1 (ix2 i (0 : Fin 1))) thr

/-- The column with a constant one appended. -/
def aug (col : Fin 5 → EReal) (k : Fin 6) : EReal := if h : k.val < 5 then col ⟨k.val, h⟩ else 1

/-- The first hidden layer in its second spelling: the bias-augmented weights times the one-augmented column. -/
def hid1a (col : Fin 5 → EReal) (w1a : Mat 24 6) (i : Fin 24) : EReal :=
  max (∑ k : Fin 6, w1a (ix2 i k) * aug col k) thr

/-- The second hidden layer and the output layer, from the first hidden layer's 24 values. -/
def tail (h1 : Fin 24 → EReal) (w2 : Mat 24 24) (b2 : Mat 24 1) (w3 : Mat 5 24) (b3 : Mat 5 1) (a : Fin 5) : EReal :=
  max (∑ j : Fin 24, w3 (ix2 a j) * max (∑ i : Fin 24, w2 (ix2 j i) * h1 i + b2 (ix2 j (0 : Fin 1))) thr
    + b3 (ix2 a (0 : Fin 1))) thr

/-- The network on one column. -/
def net (col : Fin 5 → EReal) (w1 : Mat 24 5) (b1 : Mat 24 1) (w2 : Mat 24 24) (b2 : Mat 24 1) (w3 : Mat 5 24)
    (b3 : Mat 5 1) (a : Fin 5) : EReal :=
  tail (hid1 col w1 b1) w2 b2 w3 b3 a

/-- The two spellings of the first layer agree when the augmented weights are the weights with the bias as a sixth
    column: the sixth term of the sum is `b₁ i · 1`. -/
theorem hid1a_eq (col : Fin 5 → EReal) (w1a : Mat 24 6) (w1 : Mat 24 5) (b1 : Mat 24 1)
    (hw : ∀ (i : Fin 24) (k : Fin 5), w1a (ix2 i k.castSucc) = w1 (ix2 i k))
    (hb : ∀ i : Fin 24, w1a (ix2 i (Fin.last 5)) = b1 (ix2 i (0 : Fin 1))) (i : Fin 24) :
    hid1a col w1a i = hid1 col w1 b1 i := by
  unfold hid1a hid1
  rw [Fin.sum_univ_castSucc]
  have e1 : ∀ k : Fin 5, aug col k.castSucc = col k := fun k => by
    unfold aug
    rw [dif_pos (by rw [Fin.coe_castSucc]; exact k.isLt)]
    exact congrArg col (Fin.ext (Fin.coe_castSucc k))
  have e2 : aug col (Fin.last 5) = 1 := by
    unfold aug
    rw [dif_neg (by decide)]
  simp only [e1, e2, hw, hb, mul_one]

/-- The network applied to every row of a batch `x` of `N` rows: entry `(n, a)` is output `a` of row `n`. -/
def rows {N : Nat} (x : Mat N 5) (w1 : Mat 24 5) (b1 : Mat 24 1) (w2 : Mat 24 24) (b2 : Mat 24 1) (w3 : Mat 5 24)
    (b3 : Mat 5 1) : Mat N 5 :=
  fun i => net (fun k => x (ix2 (i 0) k)) w1 b1 w2 b2 w3 b3 (i 1)

/-- The same with the batch along the lanes: from the transposed batch `xT`, entry `(a, n)` is output `a` of
    column `n`. -/
def cols {N : Nat} (xT : Mat 5 N) (w1 : Mat 24 5) (b1 : Mat 24 1) (w2 : Mat 24 24) (b2 : Mat 24 1) (w3 : Mat 5 24)
    (b3 : Mat 5 1) : Mat 5 N :=
  fun j => net (fun k => xT (ix2 k (j 1))) w1 b1 w2 b2 w3 b3 (j 0)

end Cert.Mlp

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibZeroAccMatmul.lean ====
/-
  A matrix product into a zero accumulator, read at an index as a plain sum.

  At the ideal values a matrix product unit adds, to the accumulator's entry, the sum over the contraction's index
  set of the products of the operands' entries. When the accumulator is the zero splat and the product is of a
  rows-by-columns shape, [A, K] × [K, B] → [A, B] with no batch axis, the entry at `(p, q)` is
  `∑ k < K, x (p, k) · y (k, q)`: no accumulator term, no rounding, no chunk order.
-/
import proofs.«102289_g2000505761620413_pallasbulk_475_26_alg».proof.Proof.LibPlainDot
import Idealize.ShloMosaic.PureOps.Ideal.Laws
import Idealize.ShloMosaic.Lib.ValueIdx

open scoped BigOperators

namespace Cert.ZeroAccMatmul

open Idealize.ShloMosaic Idealize.ShloMosaic.ValueIdx

variable {A K B : Nat} (d : DotDims ⟨2, ![A, K]⟩ ⟨2, ![K, B]⟩ ⟨2, ![A, B]⟩)

/-- The product of `x` and `y` into the zero splat, at `(p, q)`, for any record with the rows-by-columns dimension
    numbers and any contraction precision. -/
theorem apply (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ .f32) (y : FVec Ideal ⟨2, ![K, B]⟩ .f32) (p : Fin A) (q : Fin B) :
    FloatOps.matmul d prec x y (constant (F := Ideal) ⟨2, ![A, B]⟩ .f32 0x00000000#32) (ix2 p q) = ∑ k : Fin K, x (ix2 p k) * y (ix2 k q) :=
  (Ideal.matmul_constant_zero_apply d prec x y (ix2 p q)).trans (Cert.PlainDot.sum_eq d hlb hln hlc hrb hrn hrc hr hs x y p q)

end Cert.ZeroAccMatmul
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KPay.lean ====
/-
  What the kernel's body computes on one block, read at an index.

  The body loads a block `x` of the transposed batch (5 rows, 131072 lanes), puts a row of ones under it (6 rows),
  multiplies the 24 × 6 augmented weights into it from a zero accumulator and rectifies; multiplies the 24 × 24 weights
  in, adds the second bias column repeated along the lanes, rectifies; multiplies the 5 × 24 weights in, adds the third
  bias column, rectifies. At position `(a, q)` of the block each product is a plain sum over the contracted axis, the
  repeated bias column reads its row, and the augmented block reads `x (k, q)` on its first five rows and one on the
  sixth. So entry `(a, q)` is output `a` of the column network, in its augmented spelling, on column `q` of `x`.
-/
import proofs.«102289_g2000505761620413_pallasbulk_475_26_alg».proof.Proof.Gen.KernelIdeal.Skeleton
import proofs.«102289_g2000505761620413_pallasbulk_475_26_alg».proof.Proof.Mlp
import proofs.«102289_g2000505761620413_pallasbulk_475_26_alg».proof.Proof.LibZeroAccMatmul
import proofs.«102289_g2000505761620413_pallasbulk_475_26_alg».proof.Proof.LibColumnLayout
import Idealize.ShloMosaic.Lib.Pipeline.Value
import Idealize.ShloMosaic.Lib.IdealHost

open scoped BigOperators

noncomputable section

namespace Cert.KernelIdeal.Pay

open Cert.KernelIdeal Cert.KernelIdeal.Gen Idealize.ShloMosaic Idealize.ShloMosaic.ValueIdx Cert.Mlp

/-- The block with a row of ones under it. -/
def xaug (x0 : FVec Ideal S5x131072 .f32) : FVec Ideal S6x131072 .f32 :=
  concatenate S6x131072 0 [⟨S5x131072, shapeCast S5x131072 x0 shapeCasts_S5x131072_S5x131072⟩,
    ⟨S1x131072, broadcast S1x131072 (Scalar.ofBits (F := Ideal) .f32 0x3F800000#32)⟩]
    concatenates_S5x131072_S1x131072_S6x131072_d0

/-- The first hidden layer of the block. -/
def lay1 (x0 : FVec Ideal S5x131072 .f32) (x1 : FVec Ideal S24x6 .f32) : FVec Ideal S24x131072 .f32 :=
  maximumf (matmul dot_S24x6_S6x131072_S24x131072_1_0_0_1_n_n none (shapeCast S24x6 x1 shapeCasts_S24x6_S24x6) (xaug x0)
    (constant S24x131072 .f32 0x00000000#32)) (broadcast S24x131072 (Scalar.ofBits (F := Ideal) .f32 0x00000000#32))

/-- The second hidden layer, from the first. -/
def lay2 (h1 : FVec Ideal S24x131072 .f32) (x2 : FVec Ideal S24x24 .f32) (x3 : FVec Ideal S24x1 .f32) :
    FVec Ideal S24x131072 .f32 :=
  maximumf (addf (matmul dot_S24x24_S24x131072_S24x131072_1_0_0_1_n_n none x2 h1 (constant S24x131072 .f32 0x00000000#32))
    (broadcastTo S24x131072 x3 broadcasts_S24x1_S24x131072)) (broadcast S24x131072 (Scalar.ofBits (F := Ideal) .f32 0x00000000#32))

/-- The output layer, from the second hidden layer. -/
def lay3 (h2 : FVec Ideal S24x131072 .f32) (x4 : FVec Ideal S5x24 .f32) (x5 : FVec Ideal S5x1 .f32) :
    FVec Ideal S5x131072 .f32 :=
  maximumf (addf (matmul dot_S5x24_S24x131072_S5x131072_1_0_0_1_n_n none x4 h2 (constant S5x131072 .f32 0x00000000#32))
    (broadcastTo S5x131072 x5 broadcasts_S5x1_S5x131072)) (broadcast S5x131072 (Scalar.ofBits (F := Ideal) .f32 0x00000000#32))

/-- The stored value is the three layers composed. -/
theorem pay_eq (x0 : FVec Ideal S5x131072 .f32) (x1 : FVec Ideal S24x6 .f32) (x2 : FVec Ideal S24x24 .f32)
    (x3 : FVec Ideal S24x1 .f32) (x4 : FVec Ideal S5x24 .f32) (x5 : FVec Ideal S5x1 .f32) :
    k0_pay1 (F := Ideal) x0 x1 x2 x3 x4 x5 = lay3 (lay2 (lay1 x0 x1) x2 x3) x4 x5 := rfl

/-- The augmented block at `(k, q)`: the block's entry on the first five rows, one on the sixth. -/
theorem xaug_apply (x0 : FVec Ideal S5x131072 .f32) (k : Fin 6) (q : Fin 131072) :
    xaug x0 (ix2 k q) = aug (fun k' => x0 (ix2 k' q)) k := by
  unfold xaug aug
  rw [shapeCast_self]
  by_cases h : k.val < 5
  · rw [dif_pos h]
    exact concatenate_pair_apply_left (t := S6x131072) (s₁ := S5x131072) (s₂ := S1x131072) (0 : Fin 2) x0
      (broadcast S1x131072 (Scalar.ofBits (F := Ideal) .f32 0x3F800000#32)) concatenates_S5x131072_S1x131072_S6x131072_d0
      (ix2 k q) rfl (ix2 (⟨k.val, h⟩ : Fin 5) q) (fun b => match b with | ⟨0, _⟩ => rfl | ⟨1, _⟩ => rfl)
  · rw [dif_neg h]
    have hk : k.val = 5 := by have := k.isLt; omega
    refine (concatenate_pair_apply_right (t := S6x131072) (s₁ := S5x131072) (s₂ := S1x131072) (0 : Fin 2) x0
      (broadcast S1x131072 (Scalar.ofBits (F := Ideal) .f32 0x3F800000#32)) concatenates_S5x131072_S1x131072_S6x131072_d0
      (ix2 k q) rfl rfl (ix2 (0 : Fin 1) q)
      (fun b hb => match b, hb with
        | ⟨0, _⟩, hb => absurd rfl hb
        | ⟨1, _⟩, _ => rfl) (by show (0 : ℕ) + 5 = k.val; omega)).trans ?_
    show Ideal.ofBits .f32 0x3F800000#32 = 1
    exact Ideal.ofBits_one_f32

/-- The first hidden layer at `(i, q)`. -/
theorem lay1_apply (x0 : FVec Ideal S5x131072 .f32) (x1 : FVec Ideal S24x6 .f32) (i : Fin 24) (q : Fin 131072) :
    lay1 x0 x1 (ix2 i q) = hid1a (fun k => x0 (ix2 k q)) x1 i := by
  unfold lay1 hid1a
  rw [shapeCast_self]
  show max (FloatOps.matmul dot_S24x6_S6x131072_S24x131072_1_0_0_1_n_n none x1 (xaug x0)
    (constant (F := Ideal) S24x131072 .f32 0x00000000#32) (ix2 i q)) thr = _
  rw [Cert.ZeroAccMatmul.apply dot_S24x6_S6x131072_S24x131072_1_0_0_1_n_n rfl rfl rfl rfl rfl rfl rfl rfl none x1 (xaug x0) i q]
  simp only [xaug_apply]

/-- The second hidden layer at `(j, q)`, from the first layer's values in column `q`. -/
theorem lay2_apply (h1 : FVec Ideal S24x131072 .f32) (x2 : FVec Ideal S24x24 .f32) (x3 : FVec Ideal S24x1 .f32)
    (j : Fin 24) (q : Fin 131072) :
    lay2 h1 x2 x3 (ix2 j q) = max (∑ i : Fin 24, x2 (ix2 j i) * h1 (ix2 i q) + x3 (ix2 j (0 : Fin 1))) thr := by
  unfold lay2
  show max (FloatOps.matmul dot_S24x24_S24x131072_S24x131072_1_0_0_1_n_n none x2 h1
    (constant (F := Ideal) S24x131072 .f32 0x00000000#32) (ix2 j q)
      + broadcastTo S24x131072 x3 broadcasts_S24x1_S24x131072 (ix2 j q)) thr = _
  rw [Cert.ZeroAccMatmul.apply dot_S24x24_S24x131072_S24x131072_1_0_0_1_n_n rfl rfl rfl rfl rfl rfl rfl rfl none x2 h1 j q,
    Cert.ColumnLayout.broadcastTo_a1_ab_apply x3 broadcasts_S24x1_S24x131072 j q]

/-- The output layer at `(a, q)`, from the second layer's values in column `q`. -/
theorem lay3_apply (h2 : FVec Ideal S24x131072 .f32) (x4 : FVec Ideal S5x24 .f32) (x5 : FVec Ideal S5x1 .f32)
    (a : Fin 5) (q : Fin 131072) :
    lay3 h2 x4 x5 (ix2 a q) = max (∑ j : Fin 24, x4 (ix2 a j) * h2 (ix2 j q) + x5 (ix2 a (0 : Fin 1))) thr := by
  unfold lay3
  show max (FloatOps.matmul dot_S5x24_S24x131072_S5x131072_1_0_0_1_n_n none x4 h2
    (constant (F := Ideal) S5x131072 .f32 0x00000000#32) (ix2 a q)
      + broadcastTo S5x131072 x5 broadcasts_S5x1_S5x131072 (ix2 a q)) thr = _
  rw [Cert.ZeroAccMatmul.apply dot_S5x24_S24x131072_S5x131072_1_0_0_1_n_n rfl rfl rfl rfl rfl rfl rfl rfl none x4 h2 a q,
    Cert.ColumnLayout.broadcastTo_a1_ab_apply x5 broadcasts_S5x1_S5x131072 a q]

/-- THE BLOCK: entry `(a, q)` of the stored value is output `a` of the column network, first layer in its augmented
    spelling, on column `q` of the loaded block. -/
theorem pay_apply (x0 : FVec Ideal S5x131072 .f32) (x1 : FVec Ideal S24x6 .f32) (x2 : FVec Ideal S24x24 .f32)
    (x3 : FVec Ideal S24x1 .f32) (x4 : FVec Ideal S5x24 .f32) (x5 : FVec Ideal S5x1 .f32) (a : Fin 5) (q : Fin 131072) :
    k0_pay1 (F := Ideal) x0 x1 x2 x3 x4 x5 (ix2 a q) = tail (hid1a (fun k => x0 (ix2 k q)) x1) x2 x3 x4 x5 a := by
  rw [pay_eq, lay3_apply]
  unfold tail
  simp only [lay2_apply, lay1_apply]

end Cert.KernelIdeal.Pay

end
-- ==== Proof.KValue.lean ====
/-
  The kernel's result as one function of its arguments.

  The host transposes the batch (5 rows, 1048576 lanes) and appends the first bias as a sixth column of the first
  weights. The region cuts the lanes into 8 blocks of 131072; at block `t` the body reads lanes
  `131072·t … 131072·t + 131071` of the transposed batch and the five small matrices whole, and writes the same lanes
  of the result. Every unit of the network reads one column, so what block `t` writes is the restriction to its lanes
  of ONE function of the whole arrays: the column network along the lanes. The 8 blocks tile the lanes (lane `n` is in
  block `n / 131072`), so the region's result is that function. The host transposes it back: entry `(n, a)` of the
  program's result is output `a` of the network on row `n` of the batch.
-/
import proofs.«102289_g2000505761620413_pallasbulk_475_26_alg».proof.Proof.Gen.KernelIdeal.Frame
import proofs.«102289_g2000505761620413_pallasbulk_475_26_alg».proof.Proof.KPay
import Idealize.ShloMosaic.Lib.Pipeline.Value
import Idealize.ShloMosaic.Lib.ValueLayout
import Idealize.ShloMosaic.Lib.StableHlo.Run

open scoped BigOperators

noncomputable section

namespace Cert.KernelIdeal.Val

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-! ## The host lines before the region -/

/-- The region finds the batch transposed. -/
theorem V_xT (c : Dev nD) : (V m c main_v0 : S5x1048576.Idx → EReal)
    = transpose S5x1048576 [1, 0] (m ((c : Thread nD τ).loc main_arg0)) transposes_S1048576x5_S5x1048576_1_0 := by
  show StableHlo.after hostOps0 (fun b => m (c, b)) (Proc.devRef .tc main_v0) = _
  after_results

/-- The region finds the first weights with the first bias as a sixth column. -/
theorem V_w1a (c : Dev nD) : (V m c main_v1 : S24x6.Idx → EReal)
    = concatenate S24x6 1 [⟨S24x5, m ((c : Thread nD τ).loc main_arg1)⟩, ⟨S24x1, m ((c : Thread nD τ).loc main_arg2)⟩]
        concatenates_S24x5_S24x1_S24x6_d1 := by
  show StableHlo.after hostOps0 (fun b => m (c, b)) (Proc.devRef .tc main_v1) = _
  after_results

/-! ## The host line after the region -/

/-- The program's result is the region's result transposed back. -/
theorem tail_v3 (c : Dev nD) : (Pipeline.afterTail₀ cfgs (dats m) 0 (V0 m) [hostOps1] c main_v3 : S1048576x5.Idx → EReal)
    = transpose S1048576x5 [1, 0] ((dats m 0 c).arrAt 6 cfg0.N) transposes_S5x1048576_S1048576x5_1_0 := by
  unfold Pipeline.afterTail₀
  show StableHlo.after hostOps1 _ (Proc.devRef .tc main_v3) = _
  after_results
  exact congrArg (fun A => transpose S1048576x5 [1, 0] A transposes_S5x1048576_S1048576x5_1_0)
    (Pipeline.withArrays_arr spec0 launch0.win.arr_inj c _ _ 6)

/-! ## What a block writes back -/

theorem hz : (![0, 0] : Fin 2 → Nat) = fun _ => 0 := funext fun a => by fin_cases a <;> rfl

/-- The region's result as ONE function of the arrays the region finds: the column network, first layer in its augmented
    spelling, along the lanes of the transposed batch. -/
def lanes (c : Dev nD) : S5x1048576.Idx → EReal := fun j =>
  tail (hid1a (fun k => V m c main_v0 (ix2 k (j 1))) (V m c main_v1)) (V m c main_arg3) (V m c main_arg4)
    (V m c main_arg5) (V m c main_arg6) (j 0)

/-- The printed index maps, decided over the 8 points: the batch's and the result's blocks sit at rows 0 and at lane
    block `t`; the five small matrices are read whole at every point. -/
theorem idx_facts : ∀ t : Fin cfg0.N, win0_0.index t (0 : Fin 2) = 0 ∧ win0_0.index t (1 : Fin 2) = t.val
    ∧ win0_6.index t (0 : Fin 2) = 0 ∧ win0_6.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem hN : cfg0.N = 8 := N_0

/-- WHAT POINT `t` WRITES BACK is block `t` of `lanes`: the body's value at `(a, q)` is the column network on column
    `q` of the batch's block, which is lane `131072·t + q` of the transposed batch. -/
theorem flushed_eq (c : Dev nD) (t : Fin cfg0.N) :
    (dats m 0 c).flushed 6 t = ((cfg0.win 6).blk t).view.read (Elt Ideal) (lanes m c) := by
  show (cfg0.win 6).cut (grid0.coords t) ((dats m 0 c).after 6 t) = _
  rw [after0_6]
  unfold out0_6
  rw [View.canon_unit_zero hz]
  simp only [View.ld_unit_zero (S := S5x131072) hz, View.ld_unit_zero (S := S24x6) hz, View.ld_unit_zero (S := S24x24) hz,
    View.ld_unit_zero (S := S24x1) hz, View.ld_unit_zero (S := S5x24) hz, View.ld_unit_zero (S := S5x1) hz]
  obtain ⟨e00, e01, e60, e61, e10, e11, e20, e21, e30, e31, e40, e41, e50, e51⟩ := idx_facts t
  have ht : t.val < 8 := hN ▸ t.isLt
  funext y
  obtain ⟨a, q, rfl⟩ : ∃ (a : Fin 5) (q : Fin 131072), y = ix2 a q := ⟨y 0, y 1, eq_ix2 y⟩
  have hq : t.val * 131072 + q.val < 1048576 := by have := q.isLt; omega
  have hE : ((cfg0.win 6).blk t).view.emb (ix2 a q) = ix2 a (⟨t.val * 131072 + q.val, hq⟩ : Fin 1048576) :=
    funext fun b => Fin.ext (by
      match b with
      | ⟨0, _⟩ => show win0_6.index t (0 : Fin 2) * 5 + 1 * a.val = a.val; omega
      | ⟨1, _⟩ => show win0_6.index t (1 : Fin 2) * 131072 + 1 * q.val = t.val * 131072 + q.val; omega)
  show k0_pay1 (F := Ideal) (iblk m c 0 t) (iblk m c 1 t) (iblk m c 2 t) (iblk m c 3 t) (iblk m c 4 t) (iblk m c 5 t) (ix2 a q)
    = lanes m c (((cfg0.win 6).blk t).view.emb (ix2 a q))
  rw [hE]
  refine (Cert.KernelIdeal.Pay.pay_apply (iblk m c 0 t) (iblk m c 1 t) (iblk m c 2 t) (iblk m c 3 t) (iblk m c 4 t)
    (iblk m c 5 t) a q).trans ?_
  have h0 : (fun k : Fin 5 => iblk m c 0 t (ix2 k q))
      = fun k : Fin 5 => V m c main_v0 (ix2 k (⟨t.val * 131072 + q.val, hq⟩ : Fin 1048576)) := funext fun k => by
    show V m c main_v0 (((cfg0.win 0).blk t).view.emb (ix2 k q)) = _
    refine congrArg (V m c main_v0) (funext fun b => Fin.ext ?_)
    match b with
    | ⟨0, _⟩ => show win0_0.index t (0 : Fin 2) * 5 + 1 * k.val = k.val; omega
    | ⟨1, _⟩ => show win0_0.index t (1 : Fin 2) * 131072 + 1 * q.val = t.val * 131072 + q.val; omega
  have h1 : iblk m c 1 t = V m c main_v1 := funext fun y => by
    show V m c main_v1 (((cfg0.win 1).blk t).view.emb y) = _
    refine congrArg (V m c main_v1) (funext fun b => Fin.ext ?_)
    match b with
    | ⟨0, _⟩ => show win0_1.index t (0 : Fin 2) * 24 + 1 * (y 0).val = (y 0).val; omega
    | ⟨1, _⟩ => show win0_1.index t (1 : Fin 2) * 6 + 1 * (y 1).val = (y 1).val; omega
  have h2 : iblk m c 2 t = V m c main_arg3 := funext fun y => by
    show V m c main_arg3 (((cfg0.win 2).blk t).view.emb y) = _
    refine congrArg (V m c main_arg3) (funext fun b => Fin.ext ?_)
    match b with
    | ⟨0, _⟩ => show win0_2.index t (0 : Fin 2) * 24 + 1 * (y 0).val = (y 0).val; omega
    | ⟨1, _⟩ => show win0_2.index t (1 : Fin 2) * 24 + 1 * (y 1).val = (y 1).val; omega
  have h3 : iblk m c 3 t = V m c main_arg4 := funext fun y => by
    show V m c main_arg4 (((cfg0.win 3).blk t).view.emb y) = _
    refine congrArg (V m c main_arg4) (funext fun b => Fin.ext ?_)
    match b with
    | ⟨0, _⟩ => show win0_3.index t (0 : Fin 2) * 24 + 1 * (y 0).val = (y 0).val; omega
    | ⟨1, _⟩ => show win0_3.index t (1 : Fin 2) * 1 + 1 * (y 1).val = (y 1).val; omega
  have h4 : iblk m c 4 t = V m c main_arg5 := funext fun y => by
    show V m c main_arg5 (((cfg0.win 4).blk t).view.emb y) = _
    refine congrArg (V m c main_arg5) (funext fun b => Fin.ext ?_)
    match b with
    | ⟨0, _⟩ => show win0_4.index t (0 : Fin 2) * 5 + 1 * (y 0).val = (y 0).val; omega
    | ⟨1, _⟩ => show win0_4.index t (1 : Fin 2) * 24 + 1 * (y 1).val = (y 1).val; omega
  have h5 : iblk m c 5 t = V m c main_arg6 := funext fun y => by
    show V m c main_arg6 (((cfg0.win 5).blk t).view.emb y) = _
    refine congrArg (V m c main_arg6) (funext fun b => Fin.ext ?_)
    match b with
    | ⟨0, _⟩ => show win0_5.index t (0 : Fin 2) * 5 + 1 * (y 0).val = (y 0).val; omega
    | ⟨1, _⟩ => show win0_5.index t (1 : Fin 2) * 1 + 1 * (y 1).val = (y 1).val; omega
  rw [h0, h1, h2, h3, h4, h5]
  rfl

/-! ## The blocks tile the lanes -/

/-- An index of the result is in point `t`'s block iff each coordinate is in the block's range on its axis. -/
theorem mem_blk (t : Fin cfg0.N) (i : S5x1048576.Idx) :
    i ∈ ((cfg0.win 6).blk t).view.set ↔ ∀ a : Fin 2, win0_6.index t a * S5x131072.size a ≤ (i a).val
      ∧ (i a).val < win0_6.index t a * S5x131072.size a + S5x131072.size a := by
  show i ∈ ((View.whole main_v2).slice (win0_6.rect t)).set ↔ _
  rw [View.set_slice_whole, Rect.mem_set_unit]
  exact Iff.rfl

/-- Lane `n` is in block `n / 131072`. -/
theorem cover (i : S5x1048576.Idx) :
    ∃ t : Fin cfg0.N, (cfg0.win 6).flush t = true ∧ i ∈ ((cfg0.win 6).blk t).view.set := by
  have hi0 : (i 0).val < 5 := (i 0).isLt
  have hi1 : (i 1).val < 1048576 := (i 1).isLt
  refine ⟨⟨(i 1).val / 131072, by rw [hN]; omega⟩, flush0_6 _, ?_⟩
  rw [mem_blk]
  obtain ⟨-, -, e60, e61, -⟩ := idx_facts ⟨(i 1).val / 131072, by rw [hN]; omega⟩
  intro a
  match a with
  | ⟨0, _⟩ =>
    show win0_6.index _ (0 : Fin 2) * 5 ≤ (i 0).val ∧ (i 0).val < win0_6.index _ (0 : Fin 2) * 5 + 5
    rw [e60]; omega
  | ⟨1, _⟩ =>
    show win0_6.index _ (1 : Fin 2) * 131072 ≤ (i 1).val ∧ (i 1).val < win0_6.index _ (1 : Fin 2) * 131072 + 131072
    rw [e61]; show (i 1).val / 131072 * 131072 ≤ (i 1).val ∧ (i 1).val < (i 1).val / 131072 * 131072 + 131072; omega

/-- THE REGION'S RESULT after the run is `lanes`. -/
theorem final (c : Dev nD) : (dats m 0 c).arrAt 6 cfg0.N = lanes m c :=
  (dats m 0 c).arrAt_eq_of_cover 6 (lanes m c) (fun t _ => flushed_eq m c t) cover

/-! ## In terms of the arguments -/

/-- The six argument arrays other than the batch, as launched. -/
abbrev W1 (c : Dev nD) : Mat 24 5 := m ((c : Thread nD τ).loc main_arg1)
abbrev B1 (c : Dev nD) : Mat 24 1 := m ((c : Thread nD τ).loc main_arg2)
abbrev W2 (c : Dev nD) : Mat 24 24 := m ((c : Thread nD τ).loc main_arg3)
abbrev B2 (c : Dev nD) : Mat 24 1 := m ((c : Thread nD τ).loc main_arg4)
abbrev W3 (c : Dev nD) : Mat 5 24 := m ((c : Thread nD τ).loc main_arg5)
abbrev B3 (c : Dev nD) : Mat 5 1 := m ((c : Thread nD τ).loc main_arg6)
/-- The batch as launched. -/
abbrev X (c : Dev nD) : Mat 1048576 5 := m ((c : Thread nD τ).loc main_arg0)

/-- The augmented weights are the first weights on their first five columns … -/
theorem w1a_left (c : Dev nD) (i : Fin 24) (k : Fin 5) :
    (V m c main_v1 : S24x6.Idx → EReal) (ix2 i k.castSucc) = W1 m c (ix2 i k) := by
  rw [V_w1a]
  exact concatenate_pair_apply_left (t := S24x6) (s₁ := S24x5) (s₂ := S24x1) (1 : Fin 2) (W1 m c) (B1 m c)
    concatenates_S24x5_S24x1_S24x6_d1 (ix2 i k.castSucc) rfl (ix2 i k)
    (fun b => match b with | ⟨0, _⟩ => rfl | ⟨1, _⟩ => rfl)

/-- … and the first bias on their sixth. -/
theorem w1a_last (c : Dev nD) (i : Fin 24) :
    (V m c main_v1 : S24x6.Idx → EReal) (ix2 i (Fin.last 5)) = B1 m c (ix2 i (0 : Fin 1)) := by
  rw [V_w1a]
  exact concatenate_pair_apply_right (t := S24x6) (s₁ := S24x5) (s₂ := S24x1) (1 : Fin 2) (W1 m c) (B1 m c)
    concatenates_S24x5_S24x1_S24x6_d1 (ix2 i (Fin.last 5)) rfl rfl (ix2 i (0 : Fin 1))
    (fun b hb => match b, hb with
      | ⟨0, _⟩, _ => rfl
      | ⟨1, _⟩, hb => absurd rfl hb) rfl

/-- The region's result at `(a, n)` is output `a` of the network on row `n` of the batch: the transposed batch reads
    row `n` along lane `n`, and the augmented first layer is the first layer with its bias. -/
theorem lanes_apply (c : Dev nD) (a : Fin 5) (n : Fin 1048576) :
    lanes m c (ix2 a n) = net (fun k => X m c (ix2 n k)) (W1 m c) (B1 m c) (W2 m c) (B2 m c) (W3 m c) (B3 m c) a := by
  show tail (hid1a (fun k => V m c main_v0 (ix2 k n)) (V m c main_v1)) (V m c main_arg3) (V m c main_arg4)
    (V m c main_arg5) (V m c main_arg6) a = _
  have hx : (fun k : Fin 5 => (V m c main_v0 : S5x1048576.Idx → EReal) (ix2 k n)) = fun k => X m c (ix2 n k) :=
    funext fun k => by rw [V_xT]; exact transpose_ix2_apply _ _ k n
  have h1 : hid1a (fun k => X m c (ix2 n k)) (V m c main_v1) = hid1 (fun k => X m c (ix2 n k)) (W1 m c) (B1 m c) :=
    funext fun i => hid1a_eq _ _ _ _ (w1a_left m c) (w1a_last m c) i
  rw [hx, h1, V_main_arg3, V_main_arg4, V_main_arg5, V_main_arg6]
  rfl

/-- THE PROGRAM'S RESULT: the network applied to every row of the batch. -/
theorem result_eq (c : Dev nD) : (Pipeline.afterTail₀ cfgs (dats m) 0 (V0 m) [hostOps1] c main_v3 : S1048576x5.Idx → EReal)
    = rows (X m c) (W1 m c) (B1 m c) (W2 m c) (B2 m c) (W3 m c) (B3 m c) := by
  rw [tail_v3, final]
  funext i
  obtain ⟨n, a, rfl⟩ : ∃ (n : Fin 1048576) (a : Fin 5), i = ix2 n a := ⟨i 0, i 1, eq_ix2 i⟩
  rw [transpose_ix2_apply]
  exact lanes_apply m c a n

/-! ## The run -/

/-- Every weakly fair execution terminates with the result array holding the network of every row of the batch, the
    seven arguments as launched. -/
theorem run : θ_run defs (onTc (τ := τ) (main (F := Ideal))) ⟨m, fun _ => 0, ρ⟩ (fun r => ∀ c : Dev nD,
      r.2.mem ((c.tc : Thread nD τ).loc main_v3) = rows (X m c) (W1 m c) (B1 m c) (W2 m c) (B2 m c) (W3 m c) (B3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

end Cert.KernelIdeal.Val

end
-- ==== Proof.RPay.lean ====
/-
  What the reference's body computes on one block, read at an index.

  The body loads a block `x` of the transposed batch (5 rows, 8192 lanes), multiplies the 24 × 5 weights into it from a
  zero accumulator, adds the first bias column repeated along the lanes and rectifies; multiplies the 24 × 24 weights
  in, adds the second bias column, rectifies; multiplies the 5 × 24 weights in, adds the third bias column, rectifies.
  At position `(a, q)` of the block each product is a plain sum over the contracted axis and each repeated bias column
  reads its row: entry `(a, q)` is output `a` of the column network on column `q` of `x`.
-/
import proofs.«102289_g2000505761620413_pallasbulk_475_26_alg».proof.Proof.Gen.ReferenceIdeal.Skeleton
import proofs.«102289_g2000505761620413_pallasbulk_475_26_alg».proof.Proof.Mlp
import proofs.«102289_g2000505761620413_pallasbulk_475_26_alg».proof.Proof.LibZeroAccMatmul
import proofs.«102289_g2000505761620413_pallasbulk_475_26_alg».proof.Proof.LibColumnLayout
import Idealize.ShloMosaic.Lib.Pipeline.Value

open scoped BigOperators

noncomputable section

namespace Cert.ReferenceIdeal.Pay

open Cert.ReferenceIdeal Cert.ReferenceIdeal.Gen Idealize.ShloMosaic Idealize.ShloMosaic.ValueIdx Cert.Mlp

/-- The first hidden layer of the block. -/
def lay1 (x0 : FVec Ideal S5x8192 .f32) (x1 : FVec Ideal S24x5 .f32) (x2 : FVec Ideal S24x1 .f32) : FVec Ideal S24x8192 .f32 :=
  maximumf (addf (matmul dot_S24x5_S5x8192_S24x8192_1_0_0_1_n_n none x1 (shapeCast S5x8192 x0 shapeCasts_S5x8192_S5x8192)
    (constant S24x8192 .f32 0x00000000#32)) (broadcastTo S24x8192 x2 broadcasts_S24x1_S24x8192))
    (broadcast S24x8192 (Scalar.ofBits (F := Ideal) .f32 0x00000000#32))

/-- The second hidden layer, from the first. -/
def lay2 (h1 : FVec Ideal S24x8192 .f32) (x3 : FVec Ideal S24x24 .f32) (x4 : FVec Ideal S24x1 .f32) : FVec Ideal S24x8192 .f32 :=
  maximumf (addf (matmul dot_S24x24_S24x8192_S24x8192_1_0_0_1_n_n none x3 h1 (constant S24x8192 .f32 0x00000000#32))
    (broadcastTo S24x8192 x4 broadcasts_S24x1_S24x8192)) (broadcast S24x8192 (Scalar.ofBits (F := Ideal) .f32 0x00000000#32))

/-- The output layer, from the second hidden layer. -/
def lay3 (h2 : FVec Ideal S24x8192 .f32) (x5 : FVec Ideal S5x24 .f32) (x6 : FVec Ideal S5x1 .f32) : FVec Ideal S5x8192 .f32 :=
  maximumf (addf (matmul dot_S5x24_S24x8192_S5x8192_1_0_0_1_n_n none x5 h2 (constant S5x8192 .f32 0x00000000#32))
    (broadcastTo S5x8192 x6 broadcasts_S5x1_S5x8192)) (broadcast S5x8192 (Scalar.ofBits (F := Ideal) .f32 0x00000000#32))

/-- The stored value is the three layers composed. -/
theorem pay_eq (x0 : FVec Ideal S5x8192 .f32) (x1 : FVec Ideal S24x5 .f32) (x2 : FVec Ideal S24x1 .f32)
    (x3 : FVec Ideal S24x24 .f32) (x4 : FVec Ideal S24x1 .f32) (x5 : FVec Ideal S5x24 .f32) (x6 : FVec Ideal S5x1 .f32) :
    k0_pay1 (F := Ideal) x0 x1 x2 x3 x4 x5 x6 = lay3 (lay2 (lay1 x0 x1 x2) x3 x4) x5 x6 := rfl

/-- The first hidden layer at `(i, q)`. -/
theorem lay1_apply (x0 : FVec Ideal S5x8192 .f32) (x1 : FVec Ideal S24x5 .f32) (x2 : FVec Ideal S24x1 .f32)
    (i : Fin 24) (q : Fin 8192) : lay1 x0 x1 x2 (ix2 i q) = hid1 (fun k => x0 (ix2 k q)) x1 x2 i := by
  unfold lay1 hid1
  rw [shapeCast_self]
  show max (FloatOps.matmul dot_S24x5_S5x8192_S24x8192_1_0_0_1_n_n none x1 x0
    (constant (F := Ideal) S24x8192 .f32 0x00000000#32) (ix2 i q)
      + broadcastTo S24x8192 x2 broadcasts_S24x1_S24x8192 (ix2 i q)) thr = _
  rw [Cert.ZeroAccMatmul.apply dot_S24x5_S5x8192_S24x8192_1_0_0_1_n_n rfl rfl rfl rfl rfl rfl rfl rfl none x1 x0 i q,
    Cert.ColumnLayout.broadcastTo_a1_ab_apply x2 broadcasts_S24x1_S24x8192 i q]

/-- The second hidden layer at `(j, q)`, from the first layer's values in column `q`. -/
theorem lay2_apply (h1 : FVec Ideal S24x8192 .f32) (x3 : FVec Ideal S24x24 .f32) (x4 : FVec Ideal S24x1 .f32)
    (j : Fin 24) (q : Fin 8192) :
    lay2 h1 x3 x4 (ix2 j q) = max (∑ i : Fin 24, x3 (ix2 j i) * h1 (ix2 i q) + x4 (ix2 j (0 : Fin 1))) thr := by
  unfold lay2
  show max (FloatOps.matmul dot_S24x24_S24x8192_S24x8192_1_0_0_1_n_n none x3 h1
    (constant (F := Ideal) S24x8192 .f32 0x00000000#32) (ix2 j q)
      + broadcastTo S24x8192 x4 broadcasts_S24x1_S24x8192 (ix2 j q)) thr = _
  rw [Cert.ZeroAccMatmul.apply dot_S24x24_S24x8192_S24x8192_1_0_0_1_n_n rfl rfl rfl rfl rfl rfl rfl rfl none x3 h1 j q,
    Cert.ColumnLayout.broadcastTo_a1_ab_apply x4 broadcasts_S24x1_S24x8192 j q]

/-- The output layer at `(a, q)`, from the second layer's values in column `q`. -/
theorem lay3_apply (h2 : FVec Ideal S24x8192 .f32) (x5 : FVec Ideal S5x24 .f32) (x6 : FVec Ideal S5x1 .f32)
    (a : Fin 5) (q : Fin 8192) :
    lay3 h2 x5 x6 (ix2 a q) = max (∑ j : Fin 24, x5 (ix2 a j) * h2 (ix2 j q) + x6 (ix2 a (0 : Fin 1))) thr := by
  unfold lay3
  show max (FloatOps.matmul dot_S5x24_S24x8192_S5x8192_1_0_0_1_n_n none x5 h2
    (constant (F := Ideal) S5x8192 .f32 0x00000000#32) (ix2 a q)
      + broadcastTo S5x8192 x6 broadcasts_S5x1_S5x8192 (ix2 a q)) thr = _
  rw [Cert.ZeroAccMatmul.apply dot_S5x24_S24x8192_S5x8192_1_0_0_1_n_n rfl rfl rfl rfl rfl rfl rfl rfl none x5 h2 a q,
    Cert.ColumnLayout.broadcastTo_a1_ab_apply x6 broadcasts_S5x1_S5x8192 a q]

/-- THE BLOCK: entry `(a, q)` of the stored value is output `a` of the column network on column `q` of the loaded
    block. -/
theorem pay_apply (x0 : FVec Ideal S5x8192 .f32) (x1 : FVec Ideal S24x5 .f32) (x2 : FVec Ideal S24x1 .f32)
    (x3 : FVec Ideal S24x24 .f32) (x4 : FVec Ideal S24x1 .f32) (x5 : FVec Ideal S5x24 .f32) (x6 : FVec Ideal S5x1 .f32)
    (a : Fin 5) (q : Fin 8192) :
    k0_pay1 (F := Ideal) x0 x1 x2 x3 x4 x5 x6 (ix2 a q) = net (fun k => x0 (ix2 k q)) x1 x2 x3 x4 x5 x6 a := by
  rw [pay_eq, lay3_apply]
  unfold net tail
  simp only [lay2_apply, lay1_apply]

end Cert.ReferenceIdeal.Pay

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.LibPadNothing.lean ====
/-
  A pad that adds nothing.

  A host pad places its operand inside a larger array: on axis `a` it puts `lo a` entries of the padding value below
  the operand, `hi a` above it and `interior a` between neighbours, so operand position `k` lands at
  `lo a + k · (interior a + 1)`. When every low width and every interior width is zero and the result has the operand's
  own shape, position `k` lands at `0 + k · (0 + 1) = k`: every index of the result is an index of the operand, the
  padding value is never read, and the result is the operand. Stated for any shape, any element type, any padding
  value and any spelling of the zero widths.
-/
import Idealize.ShloMosaic.Lib.KernelVsHost

noncomputable section

namespace Cert.PadNothing

open Idealize.ShloMosaic

/-- A pad with zero low and interior widths onto the operand's own shape is the operand. -/
theorem pad_eq {α : Type} {s : Shape} (lo hi interior : Fin s.rank → Nat) (hlo : ∀ a, lo a = 0)
    (hin : ∀ a, interior a = 0) (x : s.Idx → α) {u : Shape} (v : u.Idx → α) (h : s.Pads lo hi interior s)
    (hu : 0 < u.numel) : pad s lo hi interior x v h hu = x :=
  funext fun j => pad_apply_of_inside lo hi interior x v h hu j j fun a => by
    rw [hlo a, hin a, Nat.zero_add, Nat.zero_add, Nat.mul_one]
    rfl

end Cert.PadNothing

end
-- ==== Proof.RValue.lean ====
/-
  The reference's result as one function of its arguments.

  The host transposes the batch (5 rows, 1048576 lanes) and pads it by nothing on every side. The region cuts the lanes
  into 128 blocks of 8192; at block `t` the body reads lanes `8192·t … 8192·t + 8191` of the transposed batch and the
  six small matrices whole, and writes the same lanes of the result. Every unit of the network reads one column, so
  what block `t` writes is the restriction to its lanes of ONE function of the whole arrays: the column network along
  the lanes. The 128 blocks tile the lanes (lane `n` is in block `n / 8192`), so the region's result is that function.
  The host transposes it back: entry `(n, a)` of the program's result is output `a` of the network on row `n` of the
  batch.
-/
import proofs.«102289_g2000505761620413_pallasbulk_475_26_alg».proof.Proof.Gen.ReferenceIdeal.Frame
import proofs.«102289_g2000505761620413_pallasbulk_475_26_alg».proof.Proof.RPay
import proofs.«102289_g2000505761620413_pallasbulk_475_26_alg».proof.Proof.LibTypedRef
import proofs.«102289_g2000505761620413_pallasbulk_475_26_alg».proof.Proof.LibPadNothing
import Idealize.ShloMosaic.Lib.Pipeline.Value
import Idealize.ShloMosaic.Lib.ValueLayout
import Idealize.ShloMosaic.Lib.StableHlo.Run

open scoped BigOperators

noncomputable section

namespace Cert.ReferenceIdeal.Val

open Cert.ReferenceIdeal Cert.ReferenceIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The seven argument arrays as launched. -/
abbrev X (c : Dev nD) : Mat 1048576 5 := m ((c : Thread nD τ).loc main_arg0)
abbrev W1 (c : Dev nD) : Mat 24 5 := m ((c : Thread nD τ).loc main_arg1)
abbrev B1 (c : Dev nD) : Mat 24 1 := m ((c : Thread nD τ).loc main_arg2)
abbrev W2 (c : Dev nD) : Mat 24 24 := m ((c : Thread nD τ).loc main_arg3)
abbrev B2 (c : Dev nD) : Mat 24 1 := m ((c : Thread nD τ).loc main_arg4)
abbrev W3 (c : Dev nD) : Mat 5 24 := m ((c : Thread nD τ).loc main_arg5)
abbrev B3 (c : Dev nD) : Mat 5 1 := m ((c : Thread nD τ).loc main_arg6)

/-! ## The host lines before the region -/

/-- The region finds the batch transposed: the pad that follows the transpose adds nothing on any side, so entry
    `(k, n)` is the batch's `(n, k)`. -/
theorem V_xT (c : Dev nD) (k : Fin 5) (n : Fin 1048576) :
    (V m c main_v1 : S5x1048576.Idx → EReal) (ix2 k n) = X m c (ix2 n k) := by
  have e : (V m c main_v1 : S5x1048576.Idx → EReal)
      = pad S5x1048576 ![0, 0] ![0, 0] ![0, 0]
          (transpose S5x1048576 [1, 0] (X m c) transposes_S1048576x5_S5x1048576_1_0)
          (sitofp (F := Ideal) .f32 (constantI S_ 32 0#32)) pads_S5x1048576_S5x1048576_000_000 h_S_ := by
    dsimp only [V, V0]
    simp only [hostOps0, hostOps0_1, List.flatten_cons, List.flatten_nil, List.append_nil, List.cons_append,
      List.nil_append]
    after_results
    simp only [Cert.TypedRef.ofBuf_toBuf]
    rfl
  rw [e, Cert.PadNothing.pad_eq (s := S5x1048576) ![0, 0] ![0, 0] ![0, 0] (fun a => by fin_cases a <;> rfl)
    (fun a => by fin_cases a <;> rfl)]
  exact transpose_ix2_apply _ _ k n

/-! ## The host line after the region -/

/-- The program's result is the region's result transposed back. -/
theorem tail_v3 (c : Dev nD) : (Pipeline.afterTail₀ cfgs (dats m) 0 (V0 m) [hostOps1] c main_v3 : S1048576x5.Idx → EReal)
    = transpose S1048576x5 [1, 0] ((dats m 0 c).arrAt 7 cfg0.N) transposes_S5x1048576_S1048576x5_1_0 := by
  unfold Pipeline.afterTail₀
  show StableHlo.after hostOps1 _ (Proc.devRef .tc main_v3) = _
  after_results
  exact congrArg (fun A => transpose S1048576x5 [1, 0] A transposes_S5x1048576_S1048576x5_1_0)
    (Pipeline.withArrays_arr spec0 launch0.win.arr_inj c _ _ 7)

/-! ## What a block writes back -/

theorem hz : (![0, 0] : Fin 2 → Nat) = fun _ => 0 := funext fun a => by fin_cases a <;> rfl

/-- The region's result as ONE function of the arrays the region finds: the column network along the lanes of the
    transposed batch. -/
def lanes (c : Dev nD) : S5x1048576.Idx → EReal := fun j =>
  net (fun k => V m c main_v1 (ix2 k (j 1))) (V m c main_arg1) (V m c main_arg2) (V m c main_arg3) (V m c main_arg4)
    (V m c main_arg5) (V m c main_arg6) (j 0)

/-- The printed index maps, decided over the 128 points: the batch's and the result's blocks sit at rows 0 and at lane
    block `t`; the six small matrices are read whole at every point. -/
theorem idx_facts : ∀ t : Fin cfg0.N, win0_0.index t (0 : Fin 2) = 0 ∧ win0_0.index t (1 : Fin 2) = t.val
    ∧ win0_7.index t (0 : Fin 2) = 0 ∧ win0_7.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem hN : cfg0.N = 128 := N_0

/-- WHAT POINT `t` WRITES BACK is block `t` of `lanes`: the body's value at `(a, q)` is the column network on column
    `q` of the batch's block, which is lane `8192·t + q` of the transposed batch. -/
theorem flushed_eq (c : Dev nD) (t : Fin cfg0.N) :
    (dats m 0 c).flushed 7 t = ((cfg0.win 7).blk t).view.read (Elt Ideal) (lanes m c) := by
  show (cfg0.win 7).cut (grid0.coords t) ((dats m 0 c).after 7 t) = _
  rw [after0_7]
  unfold out0_7
  rw [View.canon_unit_zero hz]
  simp only [View.ld_unit_zero (S := S5x8192) hz, View.ld_unit_zero (S := S24x5) hz, View.ld_unit_zero (S := S24x24) hz,
    View.ld_unit_zero (S := S24x1) hz, View.ld_unit_zero (S := S5x24) hz, View.ld_unit_zero (S := S5x1) hz]
  obtain ⟨e00, e01, e70, e71, e10, e11, e20, e21, e30, e31, e40, e41, e50, e51, e60, e61⟩ := idx_facts t
  have ht : t.val < 128 := hN ▸ t.isLt
  funext y
  obtain ⟨a, q, rfl⟩ : ∃ (a : Fin 5) (q : Fin 8192), y = ix2 a q := ⟨y 0, y 1, eq_ix2 y⟩
  have hq : t.val * 8192 + q.val < 1048576 := by have := q.isLt; omega
  have hE : ((cfg0.win 7).blk t).view.emb (ix2 a q) = ix2 a (⟨t.val * 8192 + q.val, hq⟩ : Fin 1048576) :=
    funext fun b => Fin.ext (by
      match b with
      | ⟨0, _⟩ => show win0_7.index t (0 : Fin 2) * 5 + 1 * a.val = a.val; omega
      | ⟨1, _⟩ => show win0_7.index t (1 : Fin 2) * 8192 + 1 * q.val = t.val * 8192 + q.val; omega)
  show k0_pay1 (F := Ideal) (iblk m c 0 t) (iblk m c 1 t) (iblk m c 2 t) (iblk m c 3 t) (iblk m c 4 t) (iblk m c 5 t)
      (iblk m c 6 t) (ix2 a q)
    = lanes m c (((cfg0.win 7).blk t).view.emb (ix2 a q))
  rw [hE]
  refine (Cert.ReferenceIdeal.Pay.pay_apply (iblk m c 0 t) (iblk m c 1 t) (iblk m c 2 t) (iblk m c 3 t) (iblk m c 4 t)
    (iblk m c 5 t) (iblk m c 6 t) a q).trans ?_
  have h0 : (fun k : Fin 5 => iblk m c 0 t (ix2 k q))
      = fun k : Fin 5 => V m c main_v1 (ix2 k (⟨t.val * 8192 + q.val, hq⟩ : Fin 1048576)) := funext fun k => by
    show V m c main_v1 (((cfg0.win 0).blk t).view.emb (ix2 k q)) = _
    refine congrArg (V m c main_v1) (funext fun b => Fin.ext ?_)
    match b with
    | ⟨0, _⟩ => show win0_0.index t (0 : Fin 2) * 5 + 1 * k.val = k.val; omega
    | ⟨1, _⟩ => show win0_0.index t (1 : Fin 2) * 8192 + 1 * q.val = t.val * 8192 + q.val; omega
  have h1 : iblk m c 1 t = V m c main_arg1 := funext fun y => by
    show V m c main_arg1 (((cfg0.win 1).blk t).view.emb y) = _
    refine congrArg (V m c main_arg1) (funext fun b => Fin.ext ?_)
    match b with
    | ⟨0, _⟩ => show win0_1.index t (0 : Fin 2) * 24 + 1 * (y 0).val = (y 0).val; omega
    | ⟨1, _⟩ => show win0_1.index t (1 : Fin 2) * 5 + 1 * (y 1).val = (y 1).val; omega
  have h2 : iblk m c 2 t = V m c main_arg2 := funext fun y => by
    show V m c main_arg2 (((cfg0.win 2).blk t).view.emb y) = _
    refine congrArg (V m c main_arg2) (funext fun b => Fin.ext ?_)
    match b with
    | ⟨0, _⟩ => show win0_2.index t (0 : Fin 2) * 24 + 1 * (y 0).val = (y 0).val; omega
    | ⟨1, _⟩ => show win0_2.index t (1 : Fin 2) * 1 + 1 * (y 1).val = (y 1).val; omega
  have h3 : iblk m c 3 t = V m c main_arg3 := funext fun y => by
    show V m c main_arg3 (((cfg0.win 3).blk t).view.emb y) = _
    refine congrArg (V m c main_arg3) (funext fun b => Fin.ext ?_)
    match b with
    | ⟨0, _⟩ => show win0_3.index t (0 : Fin 2) * 24 + 1 * (y 0).val = (y 0).val; omega
    | ⟨1, _⟩ => show win0_3.index t (1 : Fin 2) * 24 + 1 * (y 1).val = (y 1).val; omega
  have h4 : iblk m c 4 t = V m c main_arg4 := funext fun y => by
    show V m c main_arg4 (((cfg0.win 4).blk t).view.emb y) = _
    refine congrArg (V m c main_arg4) (funext fun b => Fin.ext ?_)
    match b with
    | ⟨0, _⟩ => show win0_4.index t (0 : Fin 2) * 24 + 1 * (y 0).val = (y 0).val; omega
    | ⟨1, _⟩ => show win0_4.index t (1 : Fin 2) * 1 + 1 * (y 1).val = (y 1).val; omega
  have h5 : iblk m c 5 t = V m c main_arg5 := funext fun y => by
    show V m c main_arg5 (((cfg0.win 5).blk t).view.emb y) = _
    refine congrArg (V m c main_arg5) (funext fun b => Fin.ext ?_)
    match b with
    | ⟨0, _⟩ => show win0_5.index t (0 : Fin 2) * 5 + 1 * (y 0).val = (y 0).val; omega
    | ⟨1, _⟩ => show win0_5.index t (1 : Fin 2) * 24 + 1 * (y 1).val = (y 1).val; omega
  have h6 : iblk m c 6 t = V m c main_arg6 := funext fun y => by
    show V m c main_arg6 (((cfg0.win 6).blk t).view.emb y) = _
    refine congrArg (V m c main_arg6) (funext fun b => Fin.ext ?_)
    match b with
    | ⟨0, _⟩ => show win0_6.index t (0 : Fin 2) * 5 + 1 * (y 0).val = (y 0).val; omega
    | ⟨1, _⟩ => show win0_6.index t (1 : Fin 2) * 1 + 1 * (y 1).val = (y 1).val; omega
  rw [h0, h1, h2, h3, h4, h5, h6]
  rfl

/-! ## The blocks tile the lanes -/

/-- An index of the result is in point `t`'s block iff each coordinate is in the block's range on its axis. -/
theorem mem_blk (t : Fin cfg0.N) (i : S5x1048576.Idx) :
    i ∈ ((cfg0.win 7).blk t).view.set ↔ ∀ a : Fin 2, win0_7.index t a * S5x8192.size a ≤ (i a).val
      ∧ (i a).val < win0_7.index t a * S5x8192.size a + S5x8192.size a := by
  show i ∈ ((View.whole main_v2).slice (win0_7.rect t)).set ↔ _
  rw [View.set_slice_whole, Rect.mem_set_unit]
  exact Iff.rfl

/-- Lane `n` is in block `n / 8192`. -/
theorem cover (i : S5x1048576.Idx) :
    ∃ t : Fin cfg0.N, (cfg0.win 7).flush t = true ∧ i ∈ ((cfg0.win 7).blk t).view.set := by
  have hi0 : (i 0).val < 5 := (i 0).isLt
  have hi1 : (i 1).val < 1048576 := (i 1).isLt
  refine ⟨⟨(i 1).val / 8192, by rw [hN]; omega⟩, flush0_7 _, ?_⟩
  rw [mem_blk]
  obtain ⟨-, -, e70, e71, -⟩ := idx_facts ⟨(i 1).val / 8192, by rw [hN]; omega⟩
  intro a
  match a with
  | ⟨0, _⟩ =>
    show win0_7.index _ (0 : Fin 2) * 5 ≤ (i 0).val ∧ (i 0).val < win0_7.index _ (0 : Fin 2) * 5 + 5
    rw [e70]; omega
  | ⟨1, _⟩ =>
    show win0_7.index _ (1 : Fin 2) * 8192 ≤ (i 1).val ∧ (i 1).val < win0_7.index _ (1 : Fin 2) * 8192 + 8192
    rw [e71]; show (i 1).val / 8192 * 8192 ≤ (i 1).val ∧ (i 1).val < (i 1).val / 8192 * 8192 + 8192; omega

/-- THE REGION'S RESULT after the run is `lanes`. -/
theorem final (c : Dev nD) : (dats m 0 c).arrAt 7 cfg0.N = lanes m c :=
  (dats m 0 c).arrAt_eq_of_cover 7 (lanes m c) (fun t _ => flushed_eq m c t) cover

/-! ## In terms of the arguments -/

/-- The region's result at `(a, n)` is output `a` of the network on row `n` of the batch. -/
theorem lanes_apply (c : Dev nD) (a : Fin 5) (n : Fin 1048576) :
    lanes m c (ix2 a n) = net (fun k => X m c (ix2 n k)) (W1 m c) (B1 m c) (W2 m c) (B2 m c) (W3 m c) (B3 m c) a := by
  show net (fun k => V m c main_v1 (ix2 k n)) (V m c main_arg1) (V m c main_arg2) (V m c main_arg3) (V m c main_arg4)
    (V m c main_arg5) (V m c main_arg6) a = _
  have hx : (fun k : Fin 5 => (V m c main_v1 : S5x1048576.Idx → EReal) (ix2 k n)) = fun k => X m c (ix2 n k) :=
    funext fun k => V_xT m c k n
  rw [hx, V_main_arg1, V_main_arg2, V_main_arg3, V_main_arg4, V_main_arg5, V_main_arg6]

/-- THE PROGRAM'S RESULT: the network applied to every row of the batch. -/
theorem result_eq (c : Dev nD) : (Pipeline.afterTail₀ cfgs (dats m) 0 (V0 m) [hostOps1] c main_v3 : S1048576x5.Idx → EReal)
    = rows (X m c) (W1 m c) (B1 m c) (W2 m c) (B2 m c) (W3 m c) (B3 m c) := by
  rw [tail_v3, final]
  funext i
  obtain ⟨n, a, rfl⟩ : ∃ (n : Fin 1048576) (a : Fin 5), i = ix2 n a := ⟨i 0, i 1, eq_ix2 i⟩
  rw [transpose_ix2_apply]
  exact lanes_apply m c a n

/-! ## The run -/

/-- Every weakly fair execution terminates with the result array holding the network of every row of the batch, the
    seven arguments as launched. -/
theorem run : θ_run defs (onTc (τ := τ) (main (F := Ideal))) ⟨m, fun _ => 0, ρ⟩ (fun r => ∀ c : Dev nD,
      r.2.mem ((c.tc : Thread nD τ).loc main_v3) = rows (X m c) (W1 m c) (B1 m c) (W2 m c) (B2 m c) (W3 m c) (B3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.Val

end
-- ==== Proof.lean ====
/-
  A three-layer perceptron with rectified units on a batch of 1048576 rows of five features,
  `relu (W₃ · relu (W₂ · relu (W₁ · xᵀ + b₁) + b₂) + b₃)` transposed back, computed two ways.

  Both programs transpose the batch so that it runs along the lanes, launch one kernel over blocks of lanes, and
  transpose the result back. They differ in two places. The kernel cuts the lanes into 8 blocks of 131072, the
  reference into 128 blocks of 8192: every unit of the network reads one column of the batch, so either tiling
  restricts ONE function of the whole arrays, the network along the lanes (KValue.lean, RValue.lean). And the kernel
  folds the first bias into the first product: the host appends `b₁` to `W₁` as a sixth column, the body appends a row of
  ones to its block, and the product over six terms is the product over five plus `b₁ · 1`; the reference adds the bias
  column after a product over five terms. On the extended reals a sum splits off its last term and one is neutral for
  the product whatever the entries are (Mlp.lean), so the two first layers agree without any entry being finite, and the
  remaining layers are the same text. The precondition is therefore not used by the value claim.

  The three frames are the generated ones; no operation was rewritten by the idealization, so there is nothing to
  preserve.
-/
import proofs.«102289_g2000505761620413_pallasbulk_475_26_alg».proof.Defs
import proofs.«102289_g2000505761620413_pallasbulk_475_26_alg».proof.Proof.Gen.Kernel.Frame
import proofs.«102289_g2000505761620413_pallasbulk_475_26_alg».proof.Proof.Gen.KernelIdeal.Frame
import proofs.«102289_g2000505761620413_pallasbulk_475_26_alg».proof.Proof.Gen.ReferenceIdeal.Frame
import proofs.«102289_g2000505761620413_pallasbulk_475_26_alg».proof.Proof.Gen.Pre_finite_inputs
import proofs.«102289_g2000505761620413_pallasbulk_475_26_alg».proof.Proof.KValue
import proofs.«102289_g2000505761620413_pallasbulk_475_26_alg».proof.Proof.RValue
import Idealize.ShloMosaic.Adequacy
import Idealize.ShloMosaic.Init

noncomputable section

namespace Cert.Proof

open Idealize.ShloMosaic Idealize.SL.Sem

/-- From memories that agree on the seven arguments, both programs end with the network of every row of the batch in
    their result array: the same function of the same arrays. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨a0, a1, a2, a3, a4, a5, a6⟩ := hagree c
  dsimp only [Cert.ReferenceIdeal.Val.X, Cert.ReferenceIdeal.Val.W1, Cert.ReferenceIdeal.Val.B1, Cert.ReferenceIdeal.Val.W2,
    Cert.ReferenceIdeal.Val.B2, Cert.ReferenceIdeal.Val.W3, Cert.ReferenceIdeal.Val.B3]
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
